-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S256x1024 : Shape := ⟨2, ![256, 1024]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_

variable [Facts]

def fn {F : FTy → Type} [FloatOps F] (main_arg0 : FVec F S65536x256 .f32) (main_arg1 : FVec F S256x1024 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S256x1024 .f32 := Host.absf main_arg1
  let main_cst_0 : FVec F S_ .f32 := constant S_ .f32 0x7F800000#32
  let main_v5 : FVec F S256x1024 .f32 := broadcastInDim S256x1024 ![] bcast_S_S256x1024 main_cst_0
  let main_v6 : IVec S256x1024 1 := cmpf .olt main_v4 main_v5
  let main_c_1 : IVec S_ 1 := constantI S_ 1 1#1
  let main_v7 : IVec S_ 1 := (fun x v => Host.reduce IntOp.andi x v reducesTo_S256x1024_S_d0_1 h_S_) main_v6 main_c_1
  let main_v8 : IVec S_ 1 := andi main_v3 main_v7
  main_v8
-- ==== Kernel.lean ====
abbrev S65536x256 : Shape := ⟨2, ![65536, 256]⟩
abbrev S256x1024 : Shape := ⟨2, ![256, 1024]⟩
abbrev S65536x1024 : Shape := ⟨2, ![65536, 1024]⟩
abbrev S2048x256 : Shape := ⟨2, ![2048, 256]⟩
abbrev S2048x1024 : Shape := ⟨2, ![2048, 1024]⟩
abbrev S2048 : Shape := ⟨1, ![2048]⟩
abbrev S2048x1 : Shape := ⟨2, ![2048, 1]⟩
abbrev S1024 : Shape := ⟨1, ![1024]⟩
abbrev S1x1024 : Shape := ⟨2, ![1, 1024]⟩

abbrev nBuf : Space → Nat
  | .hbm => 3
  | .vmem => 5
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S65536x1024, .f32⟩
  | .local _ .vmem, ⟨0, _⟩ => ⟨S2048x256, .f32⟩
  | .local _ .vmem, ⟨1, _⟩ => ⟨S2048x256, .f32⟩
  | .local _ .vmem, ⟨2, _⟩ => ⟨S256x1024, .f32⟩
  | .local _ .vmem, ⟨3, _⟩ => ⟨S2048x1024, .f32⟩
  | .local _ .vmem, ⟨4, _⟩ => ⟨S2048x1024, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2048x256_S2048x256_0_0 : ∀ a, (![0, 0] : Fin 2 → Nat) a + S2048x256.size a ≤ S2048x256.size a
  h_S2048x256 : 0 < S2048x256.numel
  inb_S256x1024_S256x1024_0_0 : ∀ a, (![0, 0] : Fin 2 → Nat) a + S256x1024.size a ≤ S256x1024.size a
  h_S256x1024 : 0 < S256x1024.numel
  reduces_S2048x256_S2048 : S2048x256.Reduces [1] S2048
  shapeCasts_S2048_S2048x1 : S2048.ShapeCasts S2048x1
  reduces_S256x1024_S1024 : S256x1024.Reduces [0] S1024
  shapeCasts_S1024_S1x1024 : S1024.ShapeCasts S1x1024
  broadcasts_S2048x1_S2048x1024 : S2048x1.Broadcasts S2048x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  dot_S2048x256_S256x1024_S2048x1024_1_0_0_1_n_n_wf : DotDims.WF S2048x256 S256x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S65536x256.size a
  hwx0_0 : ∀ i : grid0.Coords, EltTy.bits .f32 = 32 ∨ (Rect.block (s := S65536x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S256x1024.size a
  hwx0_1 : ∀ i : grid0.Coords, EltTy.bits .f32 = 32 ∨ (Rect.block (s := S256x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S65536x1024.size a
  hwx0_2 : ∀ i : grid0.Coords, EltTy.bits .f32 = 32 ∨ (Rect.block (s := S65536x1024) S2048x1024.size (cc0_transform_2 i) (hinb0_2 i)).WholeWords (EltTy.packing .f32)

variable [Facts₀]

def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S65536x256 : Shape := ⟨2, ![65536, 256]⟩
abbrev S256x1024 : Shape := ⟨2, ![256, 1024]⟩
abbrev S_ : Shape := ⟨0, ![]⟩
abbrev S65536 : Shape := ⟨1, ![65536]⟩
abbrev S65536x1 : Shape := ⟨2, ![65536, 1]⟩
abbrev S1024 : Shape := ⟨1, ![1024]⟩
abbrev S1x1024 : Shape := ⟨2, ![1, 1024]⟩
abbrev S65536x1024 : Shape := ⟨2, ![65536, 1024]⟩

abbrev nBuf : Space → Nat
  | .hbm => 18
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256x1024, .f32⟩
  | .hbm, ⟨2, _⟩ => ⟨S65536x256, .f32⟩
  | .hbm, ⟨3, _⟩ => ⟨S_, .f32⟩
  | .hbm, ⟨4, _⟩ => ⟨S65536, .f32⟩
  | .hbm, ⟨5, _⟩ => ⟨S65536x1, .f32⟩
  | .hbm, ⟨6, _⟩ => ⟨S256x1024, .f32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S65536x1024, .f32⟩
  | .hbm, ⟨11, _⟩ => ⟨S_, .f32⟩
  | .hbm, ⟨12, _⟩ => ⟨S65536x1024, .f32⟩
  | .hbm, ⟨13, _⟩ => ⟨S65536x1024, .f32⟩
  | .hbm, ⟨14, _⟩ => ⟨S65536x1024, .f32⟩
  | .hbm, ⟨15, _⟩ => ⟨S65536x1024, .f32⟩
  | .hbm, ⟨16, _⟩ => ⟨S65536x1024, .f32⟩
  | .hbm, ⟨17, _⟩ => ⟨S65536x1024, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S256x1024_S1024_d0 : S256x1024.ReducesTo [0] S1024
  bcast_S1024_S1x1024_1 : S1024.BroadcastsInDim S1x1024 (![1] : Fin 1 → Fin S1x1024.rank)
  bcast_S_S65536x1024 : S_.BroadcastsInDim S65536x1024 (![] : Fin 0 → Fin S65536x1024.rank)
  bcast_S65536x1_S65536x1024_0_1 : S65536x1.BroadcastsInDim S65536x1024 (![0, 1] : Fin 2 → Fin S65536x1024.rank)
  bcast_S1x1024_S65536x1024_0_1 : S1x1024.BroadcastsInDim S65536x1024 (![0, 1] : Fin 2 → Fin S65536x1024.rank)
  dot_S65536x256_S256x1024_S65536x1024_1_0_0_1_n_n_wf : DotDims.WF S65536x256 S256x1024 S65536x1024 [1] [0] [0] [1] [] []

variable [Facts₀]

def dot_S65536x256_S256x1024_S65536x1024_1_0_0_1_n_n : DotDims S65536x256 S256x1024 S65536x1024 where
  lhsContracting := [1]
  rhsContracting := [0]
  lhsNonContracting := [0]
  rhsNonContracting := [1]
  lhsBatch := []
  rhsBatch := []
  wf := dot_S65536x256_S256x1024_S65536x1024_1_0_0_1_n_n_wf

class Facts : Prop extends Facts₀ where

variable [Facts]
-- ==== Proof.SqDist.lean ====
/-
  The function both programs compute, as one function of the two argument arrays.

  For a row `a = x[b, ·]` of the input and a column `c = w[·, u]` of the weights, both of length 256, the output
  entry at `(b, u)` is

      (Σ_k a_k · a_k  −  2 · Σ_k a_k · c_k)  +  Σ_k c_k · c_k ,

  the squared distance `Σ_k (a_k − c_k)²` with the square expanded. It is stated in exactly this grouping — first
  the row's sum of squares minus twice the inner product, then plus the column's sum of squares — and with
  the literal `2` as the float word both programs carry, because over the extended reals the three sums may be
  infinite and no regrouping is used anywhere: the two programs agree term by term, so no algebraic law beyond
  `0 + s = s` (a sum started from a zero accumulator) is ever needed, and no finiteness of the inputs.
-/
import Idealize.ShloMosaic.PureOps.Ideal
import Idealize.ShloMosaic.Lib.ValueIdx

noncomputable section

namespace Cert.SqDist

open Idealize.ShloMosaic Idealize.ShloMosaic.ValueIdx

/-- The float word `0x40000000` (binary32 `2.0`) read at the ideal values. Never evaluated: the same word stands on
    both sides. -/
abbrev two : EReal := Ideal.ofBits .f32 0x40000000#32

/-- The expanded squared distance of a row `a` and a column `c` of length 256. -/
def form (a c : Fin 256 → EReal) : EReal :=
  ((∑ k : Fin 256, a k * a k) - two * ∑ k : Fin 256, a k * c k) + ∑ k : Fin 256, c k * c k

/-- The whole result: entry `(b, u)` is the expanded squared distance of row `b` of `x` and column `u` of `w`. -/
def expanded (x : (⟨2, ![65536, 256]⟩ : Shape).Idx → EReal) (w : (⟨2, ![256, 1024]⟩ : Shape).Idx → EReal) :
    (⟨2, ![65536, 1024]⟩ : Shape).Idx → EReal :=
  fun i => form (fun k => x (ix2 (i 0) k)) (fun k => w (ix2 k (i 1)))

end Cert.SqDist

end
-- ==== Proof.Reference.lean ====
/-
  The reference computes the expanded squared distance.

  Its sixteen host operations, read at an output index `(b, u)`: the row's sum of squares is taken over axis 1 of
  `x · x` from a zero initial value, kept as a column and broadcast along the columns, so at `(b, u)` it is
  `0 + Σ_k x[b,k] · x[b,k]`; the column's sum of squares is taken over axis 0 of `w · w`, kept as a row and
  broadcast along the rows: `0 + Σ_k w[k,u] · w[k,u]`; the product `x · w` contracts the one shared axis:
  `Σ_k x[b,k] · w[k,u]`, scaled by the literal `2`. The operations combine them as (first − scaled product) +
  second. The index maps of the two broadcasts of each sum compose to "row `b`, position `k`" and "position `k`,
  column `u`"; the only arithmetic is `0 + s = s` for the two sums' zero initial values.
-/
import proofs.«150090_j5042291605837_1_alg».proof.Proof.Gen.ReferenceIdeal.Read
import proofs.«150090_j5042291605837_1_alg».proof.Proof.SqDist

noncomputable section

namespace Cert.SqDist.Reference

open Cert.ReferenceIdeal Cert.ReferenceIdeal.Read Idealize.ShloMosaic Idealize.ShloMosaic.ValueIdx

/-- The reference's result, as a function of its two arguments, is the expanded squared distance. -/
theorem result_eq (x : (⟨S65536x256, .f32⟩ : BufTy).Contents (Elt Ideal)) (w : (⟨S256x1024, .f32⟩ : BufTy).Contents (Elt Ideal)) :
    val_main_v12 (F := Ideal) x w = expanded x w := by
  funext i
  -- the composed index maps: the row of `x` that entry `i` reads, and the column of `w`
  have erow : ∀ k : Fin 256, idx_main_v1 (idx_main_v2 (idx_main_v9 i)) k = ix2 (i 0) k := fun k =>
    funext fun a => Fin.ext (by match a with | ⟨0, _⟩ => rfl | ⟨1, _⟩ => rfl)
  have ecol : ∀ k : Fin 256, idx_main_v4 (idx_main_v5 (idx_main_v11 i)) k = ix2 k (i 1) := fun k =>
    funext fun a => Fin.ext (by match a with | ⟨0, _⟩ => rfl | ⟨1, _⟩ => rfl)
  have el : ∀ k : Fin 256, lidx_main_v6 i k = ix2 (i 0) k := fun k =>
    funext fun a => Fin.ext (by match a with | ⟨0, _⟩ => rfl | ⟨1, _⟩ => rfl)
  have er : ∀ k : Fin 256, ridx_main_v6 i k = ix2 k (i 1) := fun k =>
    funext fun a => Fin.ext (by match a with | ⟨0, _⟩ => rfl | ⟨1, _⟩ => rfl)
  rw [val_main_v12_apply, val_main_v10_apply, val_main_v9_apply, val_main_v2_apply, val_main_v1_apply,
    val_main_v8_apply, val_main_v7_apply, val_main_v6_apply, val_main_v11_apply, val_main_v5_apply, val_main_v4_apply]
  simp only [val_main_v0_apply, val_main_v3_apply, val_main_cst_apply, val_main_cst_0_apply, val_main_cst_1_apply,
    erow, ecol, el, er, Ideal.addf_def, Ideal.subf_def, Ideal.mulf_def, Ideal.ofBits_def, Ideal.ofBits_zero_f32, zero_add]
  rfl

end Cert.SqDist.Reference

end
-- ==== Proof.LibKeepdims.lean ====
/-
  Column-shaped layout operations read at an index given by coordinates.

  A sum taken along the last axis with the axis kept (a "keepdims" row sum) leaves a COLUMN: the vector of
  sums `[a]` is re-laid as `[a, 1]` and then broadcast along the new unit axis to `[a, b]`. Read at `(p, c)`
  each of the two steps returns the operand's entry for row `p`, whatever the column `c`: the cast because
  the row-major position of `(p, 0)` in `[a, 1]` is `p · 1 + 0 = p`, the broadcast because a unit axis is read
  at `0` and every other axis at the result's own coordinate. (The transposed pair — a vector re-laid as one row
  `[1, b]` and that row broadcast over `a` rows — is already in the layout library.)
-/
import Idealize.ShloMosaic.Lib.Pipeline.Value
import Idealize.ShloMosaic.Lib.ValueIdx

namespace Cert.Lib.Keepdims

open Idealize.ShloMosaic Idealize.ShloMosaic.ValueIdx

variable {α : Type}

/-- An `[a]` vector cast to the column `[a, 1]` reads, at `(i, u)`, the operand at `i`: the unit coordinate `u`
    is `0`, and `(i, 0)` sits at row-major position `i · 1 + 0 = i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry for row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.Body.lean ====
/-
  The kernel body's arithmetic, read at one entry of its output block.

  At a grid point the body holds a block `a` of 2048 rows of `x` (2048 × 256) and the whole of `w` (256 × 1024, here
  `b`), and stores the 2048 × 1024 block whose entry `(p, q)` is

      (Σ_k a[p,k] · a[p,k]  −  2 · Σ_k a[p,k] · b[k,q])  +  Σ_k b[k,q] · b[k,q] :

  * the lane sum of `a · a` along axis 1, kept as a column `[2048, 1]` and broadcast along the columns, is at
    `(p, q)` the sum over row `p`;
  * the sum of `b · b` along axis 0, kept as a row `[1, 1024]` and broadcast along the rows, is at `(p, q)` the sum
    over column `q`;
  * the matrix product into a zero accumulator contracts the one shared axis: at `(p, q)` it is the sum over `k`
    of `a[p,k] · b[k,q]` (the contraction's index set is identified with its one coordinate `k`);
  * the literal `2` is splat and multiplies the product entry by entry; the three are combined entry by entry.

  So the entry is `SqDist.form` of row `p` of the block and column `q` of the weights.
-/
import proofs.«150090_j5042291605837_1_alg».proof.Proof.Gen.KernelIdeal.Skeleton
import proofs.«150090_j5042291605837_1_alg».proof.Proof.SqDist
import proofs.«150090_j5042291605837_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

noncomputable section

namespace Cert.SqDist.Body

open Cert.KernelIdeal Cert.KernelIdeal.Gen Idealize.ShloMosaic Idealize.ShloMosaic.ValueIdx Cert.Lib.Keepdims

/-- A sum along the rows' own axis, kept as a column and broadcast along the columns: at `(p, q)` the sum over row `p`. -/
theorem rowSums_apply (v : FVec Ideal S2048x256 .f32) (hr : S2048x256.Reduces [1] S2048) (hφ : FKind.Formats .f32)
    (hacc : (0x00000000#32 : BitVec 32) = FKind.add.neutral .f32 hφ) (hc : S2048.ShapeCasts S2048x1)
    (hb : S2048x1.Broadcasts S2048x1024) (p : Fin 2048) (q : Fin 1024) :
    broadcastTo S2048x1024 (shapeCast S2048x1 (multiReduction .add [1] S2048 v 0x00000000#32 hr hφ hacc) hc) hb (ix2 p q)
      = ∑ k : Fin 256, v (ix2 p k) :=
  (broadcastTo_a1_ab_apply _ hb p q).trans
    ((shapeCast_a_a1_apply _ hc p 0).trans
      ((Ideal.multiReduction_add_single v _ hr hφ hacc (ix1 p)).trans
        (Finset.sum_congr rfl fun k _ => congrArg v
          (funext fun a => Fin.ext (by match a with | ⟨0, _⟩ => rfl | ⟨1, _⟩ => rfl)))))

/-- A sum down the columns, kept as a row and broadcast along the rows: at `(p, q)` the sum over column `q`. -/
theorem colSums_apply (v : FVec Ideal S256x1024 .f32) (hr : S256x1024.Reduces [0] S1024) (hφ : FKind.Formats .f32)
    (hacc : (0x00000000#32 : BitVec 32) = FKind.add.neutral .f32 hφ) (hc : S1024.ShapeCasts S1x1024)
    (hb : S1x1024.Broadcasts S2048x1024) (p : Fin 2048) (q : Fin 1024) :
    broadcastTo S2048x1024 (shapeCast S1x1024 (multiReduction .add [0] S1024 v 0x00000000#32 hr hφ hacc) hc) hb (ix2 p q)
      = ∑ k : Fin 256, v (ix2 k q) :=
  (broadcastTo_1b_ab_apply _ hb p q).trans
    ((shapeCast_a_1a_apply _ hc 0 q).trans
      ((Ideal.multiReduction_add_single v _ hr hφ hacc (ix1 q)).trans
        (Finset.sum_congr rfl fun k _ => congrArg v
          (funext fun a => Fin.ext (by match a with | ⟨0, _⟩ => rfl | ⟨1, _⟩ => rfl)))))

/-- The matrix product's operand indices at output entry `i` and contraction index `κ`: the left operand is read at
    row `i 0` … -/
theorem lhs_row (i : S2048x1024.Idx) (κ : dot_S2048x256_S256x1024_S2048x1024_1_0_0_1_n_n.contr.Idx) :
    (dot_S2048x256_S256x1024_S2048x1024_1_0_0_1_n_n.lhsIdx i κ 0).val = (i 0).val := by
  unfold DotDims.lhsIdx
  rw [dif_neg (show ¬(0 : Fin S2048x256.rank) ∈ dot_S2048x256_S256x1024_S2048x1024_1_0_0_1_n_n.lhsBatch by decide),
    dif_pos (show (0 : Fin S2048x256.rank) ∈ dot_S2048x256_S256x1024_S2048x1024_1_0_0_1_n_n.lhsNonContracting by decide)]
  rfl

/-- … and the right operand at column `i 1`. -/
theorem rhs_col (i : S2048x1024.Idx) (κ : dot_S2048x256_S256x1024_S2048x1024_1_0_0_1_n_n.contr.Idx) :
    (dot_S2048x256_S256x1024_S2048x1024_1_0_0_1_n_n.rhsIdx i κ 1).val = (i 1).val := by
  unfold DotDims.rhsIdx
  rw [dif_neg (show ¬(1 : Fin S256x1024.rank) ∈ dot_S2048x256_S256x1024_S2048x1024_1_0_0_1_n_n.rhsBatch by decide),
    dif_pos (show (1 : Fin S256x1024.rank) ∈ dot_S2048x256_S256x1024_S2048x1024_1_0_0_1_n_n.rhsNonContracting by decide)]
  rfl

/-- The matrix product into a zero accumulator, at `(p, q)`: the sum over the shared axis of row `p` times column `q`. -/
theorem product_apply (a : FVec Ideal S2048x256 .f32) (b : FVec Ideal S256x1024 .f32) (p : Fin 2048) (q : Fin 1024) :
    matmul dot_S2048x256_S256x1024_S2048x1024_1_0_0_1_n_n none a b (constant (F := Ideal) S2048x1024 .f32 0x00000000#32) (ix2 p q)
      = ∑ k : Fin 256, a (ix2 p k) * b (ix2 k q) := by
  simp only [matmul]
  rw [Ideal.matmul_constant_zero_apply,
    ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 p q)
      ((contrEquiv1 dot_S2048x256_S256x1024_S2048x1024_1_0_0_1_n_n 256 rfl rfl).symm k) = ix2 p k :=
    funext fun ax => Fin.ext (by
      match ax with
      | ⟨0, _⟩ => exact lhs_row _ _
      | ⟨1, _⟩ => exact (dot_S2048x256_S256x1024_S2048x1024_1_0_0_1_n_n.lhsIdx_val_of_single rfl _ _).trans hk)
  have er : dot_S2048x256_S256x1024_S2048x1024_1_0_0_1_n_n.rhsIdx (ix2 p q)
      ((contrEquiv1 dot_S2048x256_S256x1024_S2048x1024_1_0_0_1_n_n 256 rfl rfl).symm k) = ix2 k q :=
    funext fun ax => Fin.ext (by
      match ax with
      | ⟨0, _⟩ => exact (dot_S2048x256_S256x1024_S2048x1024_1_0_0_1_n_n.rhsIdx_val_of_single rfl _ _).trans hk
      | ⟨1, _⟩ => exact rhs_col _ _)
  rw [el, er]

/-- THE STORED BLOCK AT AN ENTRY: the body's one stored value, at `(p, q)`, is the expanded squared distance of row `p`
    of the loaded block of `x` and column `q` of the loaded weights. -/
theorem stored_apply (a : Vec Ideal S2048x256 .f32) (b : Vec Ideal S256x1024 .f32) (p : Fin 2048) (q : Fin 1024) :
    k0_pay1 (F := Ideal) a b (ix2 p q) = form (fun k => a (ix2 p k)) (fun k => b (ix2 k q)) := by
  unfold k0_pay1 form
  show (broadcastTo S2048x1024 (shapeCast S2048x1 (multiReduction .add [1] S2048 (mulf a a) 0x00000000#32 _ _ _) _) _ (ix2 p q)
        - Scalar.ofBits (F := Ideal) .f32 0x40000000#32
          * matmul dot_S2048x256_S256x1024_S2048x1024_1_0_0_1_n_n none a b (constant (F := Ideal) S2048x1024 .f32 0x00000000#32) (ix2 p q))
      + broadcastTo S2048x1024 (shapeCast S1x1024 (multiReduction .add [0] S1024 (mulf b b) 0x00000000#32 _ _ _) _) _ (ix2 p q) = _
  exact congrArg₂ (· + ·)
    (congrArg₂ (· - ·) (rowSums_apply (mulf a a) _ _ _ _ _ p q) (congrArg (two * ·) (product_apply a b p q)))
    (colSums_apply (mulf b b) _ _ _ _ _ p q)

end Cert.SqDist.Body

end
-- ==== Proof.Blocks.lean ====
/-
  From the grid's blocks to the whole result array.

  The grid has 32 points. At point `t` the kernel is handed block-row `t` of `x` (rows `2048·t … 2048·t + 2047`, all
  256 columns) and the whole of `w` (the weights' block index is `(0, 0)` at every point), and what it stores is
  written back as block-row `t` of the result (rows `2048·t …`, all 1024 columns). Entry `(p, q)` of the stored
  block is the expanded squared distance of row `p` of the block — row `2048·t + p` of `x` — and column `q` of `w`:
  that is entry `(2048·t + p, q)` of `SqDist.expanded x w`. So each point writes back exactly its block of that one
  function; row `r` of the result lies in the block of point `r / 2048`, so the 32 blocks cover the array, and the
  array ends equal to `SqDist.expanded x w`.
-/
import proofs.«150090_j5042291605837_1_alg».proof.Proof.Gen.KernelIdeal.Value
import proofs.«150090_j5042291605837_1_alg».proof.Proof.Body
import Idealize.ShloMosaic.Lib.Pipeline.Value

noncomputable section

namespace Cert.SqDist.Blocks

open Cert.KernelIdeal Cert.KernelIdeal.Gen Idealize.ShloMosaic Idealize.ShloMosaic.TcCoe Idealize.SL.Sem
open Idealize.ShloMosaic.ValueIdx Cert.SqDist.Body
open Idealize.ShloMosaic.Pipeline (Dat)

variable (m : (ℓ : Loc nD τ sig) → Buf (Elt Ideal) ℓ) (ρ : Dev nD → PrngReg)

/-- The body's loads and its store start at the origin of their buffers. -/
theorem origin : (![0, 0] : Fin 2 → Nat) = fun _ => 0 := funext fun a => by fin_cases a <;> rfl

/-- The printed index maps, decided over the 32 grid points: the block of `x` and the block of the result at
    point `t` are block-row `t`; the weights' block is always the whole array. -/
theorem index_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row `p` of point `t`'s block of `x` is row `r = 2048·t + p` of `x`. -/
theorem xblock_apply (c : Dev nD) (t : Fin cfg0.N) (p : Fin 2048) (k : Fin 256) (r : Fin 65536)
    (hr : r.val = t.val * 2048 + p.val) :
    (iblk m c 0 t : Vec Ideal S2048x256 .f32) (ix2 p k) = (V m c main_arg0 : S65536x256.Idx → EReal) (ix2 r k) := by
  obtain ⟨e0, e1, -⟩ := index_facts t
  unfold iblk
  rw [View.read_apply]
  show V m c main_arg0 _ = V m c main_arg0 _
  refine congrArg (V m c main_arg0) (funext fun a => Fin.ext ?_)
  match a with
  | ⟨0, _⟩ => show win0_0.index t (0 : Fin 2) * 2048 + 1 * p.val = r.val; rw [e0, hr]; omega
  | ⟨1, _⟩ => show win0_0.index t (1 : Fin 2) * 256 + 1 * k.val = k.val; rw [e1]; omega

/-- The block of `w` at any point is `w` itself. -/
theorem wblock_apply (c : Dev nD) (t : Fin cfg0.N) (k : Fin 256) (q : Fin 1024) :
    (iblk m c 1 t : Vec Ideal S256x1024 .f32) (ix2 k q) = (V m c main_arg1 : S256x1024.Idx → EReal) (ix2 k q) := by
  obtain ⟨-, -, e2, e3, -⟩ := index_facts t
  unfold iblk
  rw [View.read_apply]
  show V m c main_arg1 _ = V m c main_arg1 _
  refine congrArg (V m c main_arg1) (funext fun a => Fin.ext ?_)
  match a with
  | ⟨0, _⟩ => show win0_1.index t (0 : Fin 2) * 256 + 1 * k.val = k.val; rw [e2]; omega
  | ⟨1, _⟩ => show win0_1.index t (1 : Fin 2) * 1024 + 1 * q.val = q.val; rw [e3]; omega

/-- WHAT POINT `t` WRITES BACK is block `t` of the expanded squared distance of the argument arrays. -/
theorem flushed_eq (c : Dev nD) (t : Fin cfg0.N) :
    (dats m 0 c).flushed 2 t
      = ((cfg0.win 2).blk t).view.read (Elt Ideal) (expanded (V m c main_arg0) (V m c main_arg1)) := by
  rw [Cert.KernelIdeal.Value.flushed2]
  unfold out0_2
  rw [View.canon_unit_zero origin]
  simp only [View.ld_unit_zero (S := S2048x256) origin, View.ld_unit_zero (S := S256x1024) origin]
  funext j
  obtain ⟨p, q, rfl⟩ : ∃ (p : Fin 2048) (q : Fin 1024), j = ix2 p q := ⟨j 0, j 1, eq_ix2 j⟩
  obtain ⟨-, -, -, -, e4, e5⟩ := index_facts t
  show k0_pay1 (F := Ideal) (iblk m c 0 t) (iblk m c 1 t) (ix2 p q)
    = expanded (V m c main_arg0) (V m c main_arg1) (((cfg0.win 2).blk t).view.emb (ix2 p q))
  refine (stored_apply (iblk m c 0 t) (iblk m c 1 t) p q).trans ?_
  unfold expanded
  refine congrArg₂ form (funext fun k => ?_) (funext fun k => ?_)
  · refine xblock_apply m c t p k _ ?_
    show win0_2.index t (0 : Fin 2) * 2048 + 1 * p.val = t.val * 2048 + p.val
    rw [e4]; omega
  · refine (wblock_apply m c t k q).trans (congrArg (V m c main_arg1) (funext fun a => Fin.ext ?_))
    match a with
    | ⟨0, _⟩ => rfl
    | ⟨1, _⟩ => show q.val = win0_2.index t (1 : Fin 2) * 1024 + 1 * q.val; rw [e5]; omega

/-- An index of the result is in point `t`'s block iff each coordinate is in the block's range on its axis. -/
theorem mem_block (t : Fin cfg0.N) (i : S65536x1024.Idx) :
    i ∈ ((cfg0.win 2).blk t).view.set ↔ ∀ a : Fin 2, win0_2.index t a * S2048x1024.size a ≤ (i a).val
      ∧ (i a).val < win0_2.index t a * S2048x1024.size a + S2048x1024.size a := by
  show i ∈ ((View.whole main_v0).slice (win0_2.rect t)).set ↔ _
  rw [View.set_slice_whole, Rect.mem_set_unit]
  exact Iff.rfl

/-- The 32 blocks cover the result: row `r` is in the block of point `r / 2048`. -/
theorem covered (i : S65536x1024.Idx) :
    ∃ t : Fin cfg0.N, (cfg0.win 2).flush t = true ∧ i ∈ ((cfg0.win 2).blk t).view.set := by
  have hN : grid0.N = 32 := N_0
  have h0 : (i 0).val < 65536 := (i 0).isLt
  have h1 : (i 1).val < 1024 := (i 1).isLt
  obtain ⟨t, ht⟩ : ∃ t : Fin cfg0.N, t.val = (i 0).val / 2048 :=
    ⟨⟨(i 0).val / 2048, by show (i 0).val / 2048 < grid0.N; rw [hN]; omega⟩, rfl⟩
  obtain ⟨-, -, -, -, e4, e5⟩ := index_facts t
  refine ⟨t, flush0_2 t, ?_⟩
  rw [mem_block]
  intro a
  match a with
  | ⟨0, _⟩ =>
    show win0_2.index t (0 : Fin 2) * 2048 ≤ (i 0).val ∧ (i 0).val < win0_2.index t (0 : Fin 2) * 2048 + 2048
    rw [e4, ht]; omega
  | ⟨1, _⟩ =>
    show win0_2.index t (1 : Fin 2) * 1024 ≤ (i 1).val ∧ (i 1).val < win0_2.index t (1 : Fin 2) * 1024 + 1024
    rw [e5]; omega

/-- THE RESULT ARRAY after the run is the expanded squared distance of the two argument arrays. -/
theorem final (c : Dev nD) :
    (dats m 0 c).arrAt 2 cfg0.N
      = expanded (m ((c : Thread nD τ).loc main_arg0)) (m ((c : Thread nD τ).loc main_arg1)) :=
  (dats m 0 c).arrAt_eq_of_cover 2 (expanded (V m c main_arg0) (V m c main_arg1))
    (fun t _ => flushed_eq m c t) covered

/-- The kernel's run, read: the result array at the expanded squared distance of the arguments, the arguments
    unchanged. -/
theorem run : θ_run defs (onTc (τ := τ) (main (F := Ideal))) ⟨m, fun _ => 0, ρ⟩ fun r => ∀ c : Dev nD,
      r.2.mem ((c : Thread nD τ).loc main_v0)
        = expanded (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.SqDist.Blocks

end
-- ==== Proof.lean ====
/-
  The kernel and its reference compute the same array: the expanded squared distance
      out[b, u] = (Σ_k x[b,k]·x[b,k] − 2·Σ_k x[b,k]·w[k,u]) + Σ_k w[k,u]·w[k,u]
  of every row of `x` (65536 × 256) against every column of `w` (256 × 1024), over the extended reals.

  * `Proof/SqDist.lean` states that function (`SqDist.expanded`).
  * `Proof/Reference.lean`: the reference's operations, read at an index, are that function; the only arithmetic is
    `0 + s = s` for the two sums of squares, which the host starts from a zero initial value.
  * `Proof/Body.lean`: the kernel body's stored block, read at an entry, is the same expression of a block of rows of
    `x` and the whole of `w` (`Proof/LibKeepdims.lean`: a kept-axis sum as a column, read at an index).
  * `Proof/Blocks.lean`: the 32 grid points write back the 32 row blocks of that one function, which cover the array.

  No law of the extended reals that could fail at an infinity is used (no regrouping, no distributivity): the two
  programs group and order their operations identically, so the inputs' finiteness is never needed.
  The three frames: the two kernel programs' are the launch-and-flush argument for a body that only loads whole blocks
  and stores a whole block; the reference's is its run with the result forgotten. The kernel's idealization rewrote
  nothing, so it preserves the kernel trivially.
-/
import proofs.«150090_j5042291605837_1_alg».proof.Defs
import proofs.«150090_j5042291605837_1_alg».proof.Proof.Gen.Kernel
import proofs.«150090_j5042291605837_1_alg».proof.Proof.Gen.Kernel.Skeleton
import proofs.«150090_j5042291605837_1_alg».proof.Proof.Gen.Kernel.Launch
import proofs.«150090_j5042291605837_1_alg».proof.Proof.Gen.Kernel.Points
import proofs.«150090_j5042291605837_1_alg».proof.Proof.Gen.Kernel.Frame
import proofs.«150090_j5042291605837_1_alg».proof.Proof.Gen.KernelIdeal
import proofs.«150090_j5042291605837_1_alg».proof.Proof.Gen.KernelIdeal.Skeleton
import proofs.«150090_j5042291605837_1_alg».proof.Proof.Gen.KernelIdeal.Launch
import proofs.«150090_j5042291605837_1_alg».proof.Proof.Gen.KernelIdeal.Points
import proofs.«150090_j5042291605837_1_alg».proof.Proof.Gen.KernelIdeal.Frame
import proofs.«150090_j5042291605837_1_alg».proof.Proof.Gen.ReferenceIdeal
import proofs.«150090_j5042291605837_1_alg».proof.Proof.Gen.Pre_finite_inputs
import proofs.«150090_j5042291605837_1_alg».proof.Proof.Gen.KernelIdeal.Value
import proofs.«150090_j5042291605837_1_alg».proof.Proof.Gen.ReferenceIdeal.Run
import proofs.«150090_j5042291605837_1_alg».proof.Proof.Gen.ReferenceIdeal.Read
import proofs.«150090_j5042291605837_1_alg».proof.Proof.Reference
import proofs.«150090_j5042291605837_1_alg».proof.Proof.Blocks
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference's run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both runs end with the result array at the expanded squared distance of the (agreeing) arguments. -/
theorem algebraic : Cert.algebraic_KernelIdeal_ReferenceIdeal := by
  intro m ρ m' ρ' _ hagree
  refine ⟨fun c => Cert.SqDist.expanded (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.SqDist.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.SqDist.Reference.result_eq, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
